-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel

variable [Facts]

def fn {F : FTy → Type} [FloatOps F] (main_arg0 : FVec F S16x1x1024x1024 .f32) (main_arg1 : FVec F S16x1x1024x1024 .f32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_v4 : FVec F S16x1x1024x1024 .f32 := Host.absf main_arg1
  let main_cst_0 : FVec F S_ .f32 := constant S_ .f32 0x7F800000#32
  let main_v5 : FVec F S16x1x1024x1024 .f32 := broadcastInDim S16x1x1024x1024 ![] bcast_S_S16x1x1024x1024 main_cst_0
  let main_v6 : IVec S16x1x1024x1024 1 := cmpf .olt main_v4 main_v5
  let main_c_1 : IVec S_ 1 := constantI S_ 1 1#1
  let main_v7 : IVec S_ 1 := (fun x v => Host.reduce IntOp.andi x v reducesTo_S16x1x1024x1024_S_d0_1_2_3 h_S_) main_v6 main_c_1
  let main_v8 : IVec S_ 1 := andi main_v3 main_v7
  main_v8
-- ==== Kernel.lean ====
abbrev S16x1x1024x1024 : Shape := ⟨4, ![16, 1, 1024, 1024]⟩
abbrev S16x1024x1024 : Shape := ⟨3, ![16, 1024, 1024]⟩
abbrev S1x1024x1024 : Shape := ⟨3, ![1, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S16x1x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x1x1024x1024_S16x1024x1024 : S16x1x1024x1024.ShapeCasts S16x1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  rotates_S1x1024x1024_d1 : S1x1024x1024.Rotates 1 none
  rotates_S1x1024x1024_d2 : S1x1024x1024.Rotates 2 none
  shapeCasts_S16x1024x1024_S16x1x1024x1024 : S16x1024x1024.ShapeCasts S16x1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x1024x1024.size a
  hwx0_2 : ∀ i : grid0.Coords, EltTy.bits .f32 = 32 ∨ (Rect.block (s := S16x1024x1024) S1x1024x1024.size (cc0_transform_2 i) (hinb0_2 i)).WholeWords (EltTy.packing .f32)

variable [Facts₀]

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1x1024x1024 : Shape := ⟨4, ![16, 1, 1024, 1024]⟩
abbrev S_ : Shape := ⟨0, ![]⟩
abbrev S16x1x1023x1024 : Shape := ⟨4, ![16, 1, 1023, 1024]⟩
abbrev S16x1x1x1024 : Shape := ⟨4, ![16, 1, 1, 1024]⟩
abbrev S16x1x1024x1023 : Shape := ⟨4, ![16, 1, 1024, 1023]⟩
abbrev S16x1x1024x1 : Shape := ⟨4, ![16, 1, 1024, 1]⟩

abbrev nBuf : Space → Nat
  | .hbm => 38
  | .vmem => 0
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S_, .f32⟩
  | .hbm, ⟨3, _⟩ => ⟨S16x1x1024x1024, .f32⟩
  | .hbm, ⟨4, _⟩ => ⟨S16x1x1023x1024, .f32⟩
  | .hbm, ⟨5, _⟩ => ⟨S16x1x1x1024, .f32⟩
  | .hbm, ⟨6, _⟩ => ⟨S16x1x1024x1024, .f32⟩
  | .hbm, ⟨7, _⟩ => ⟨S16x1x1023x1024, .f32⟩
  | .hbm, ⟨8, _⟩ => ⟨S16x1x1x1024, .f32⟩
  | .hbm, ⟨9, _⟩ => ⟨S16x1x1024x1024, .f32⟩
  | .hbm, ⟨10, _⟩ => ⟨S16x1x1024x1024, .f32⟩
  | .hbm, ⟨11, _⟩ => ⟨S_, .f32⟩
  | .hbm, ⟨12, _⟩ => ⟨S16x1x1024x1024, .f32⟩
  | .hbm, ⟨13, _⟩ => ⟨S16x1x1024x1024, .f32⟩
  | .hbm, ⟨14, _⟩ => ⟨S16x1x1024x1024, .f32⟩
  | .hbm, ⟨15, _⟩ => ⟨S16x1x1024x1024, .f32⟩
  | .hbm, ⟨16, _⟩ => ⟨S16x1x1024x1024, .f32⟩
  | .hbm, ⟨17, _⟩ => ⟨S16x1x1x1024, .f32⟩
  | .hbm, ⟨18, _⟩ => ⟨S16x1x1023x1024, .f32⟩
  | .hbm, ⟨19, _⟩ => ⟨S16x1x1024x1024, .f32⟩
  | .hbm, ⟨20, _⟩ => ⟨S16x1x1024x1024, .f32⟩
  | .hbm, ⟨21, _⟩ => ⟨S16x1x1024x1023, .f32⟩
  | .hbm, ⟨22, _⟩ => ⟨S16x1x1024x1, .f32⟩
  | .hbm, ⟨23, _⟩ => ⟨S16x1x1024x1024, .f32⟩
  | .hbm, ⟨24, _⟩ => ⟨S16x1x1024x1023, .f32⟩
  | .hbm, ⟨25, _⟩ => ⟨S16x1x1024x1, .f32⟩
  | .hbm, ⟨26, _⟩ => ⟨S16x1x1024x1024, .f32⟩
  | .hbm, ⟨27, _⟩ => ⟨S16x1x1024x1024, .f32⟩
  | .hbm, ⟨28, _⟩ => ⟨S_, .f32⟩
  | .hbm, ⟨29, _⟩ => ⟨S16x1x1024x1024, .f32⟩
  | .hbm, ⟨30, _⟩ => ⟨S16x1x1024x1024, .f32⟩
  | .hbm, ⟨31, _⟩ => ⟨S16x1x1024x1024, .f32⟩
  | .hbm, ⟨32, _⟩ => ⟨S16x1x1024x1024, .f32⟩
  | .hbm, ⟨33, _⟩ => ⟨S16x1x1024x1024, .f32⟩
  | .hbm, ⟨34, _⟩ => ⟨S16x1x1024x1, .f32⟩
  | .hbm, ⟨35, _⟩ => ⟨S16x1x1024x1023, .f32⟩
  | .hbm, ⟨36, _⟩ => ⟨S16x1x1024x1024, .f32⟩
  | .hbm, ⟨37, _⟩ => ⟨S16x1x1024x1024, .f32⟩
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call2_v0 : Ref sig .tc := ⟨.hbm, 17, rfl⟩
abbrev main_call2_v1 : Ref sig .tc := ⟨.hbm, 18, rfl⟩
abbrev main_v9 : Ref sig .tc := ⟨.hbm, 19, rfl⟩
abbrev main_v10 : Ref sig .tc := ⟨.hbm, 20, rfl⟩
abbrev main_call3_v0 : Ref sig .tc := ⟨.hbm, 21, rfl⟩
abbrev main_call3_v1 : Ref sig .tc := ⟨.hbm, 22, rfl⟩
abbrev main_v11 : Ref sig .tc := ⟨.hbm, 23, rfl⟩
abbrev main_call4_v0 : Ref sig .tc := ⟨.hbm, 24, rfl⟩
abbrev main_call4_v1 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call5_v0 : Ref sig .tc := ⟨.hbm, 34, rfl⟩
abbrev main_call5_v1 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]

class Facts₀ : Prop where
  bcast_S_S16x1x1024x1024 : S_.BroadcastsInDim S16x1x1024x1024 (![] : Fin 0 → Fin S16x1x1024x1024.rank)
  slices_S16x1x1024x1024_S16x1x1023x1024_0_0_1_0 : S16x1x1024x1024.Slices ![0, 0, 1, 0] S16x1x1023x1024
  slices_S16x1x1024x1024_S16x1x1x1024_0_0_0_0 : S16x1x1024x1024.Slices ![0, 0, 0, 0] S16x1x1x1024
  concatenates_S16x1x1023x1024_S16x1x1x1024_S16x1x1024x1024_d2 : Shape.Concatenates [S16x1x1023x1024, S16x1x1x1024] S16x1x1024x1024 2
  slices_S16x1x1024x1024_S16x1x1x1024_0_0_1023_0 : S16x1x1024x1024.Slices ![0, 0, 1023, 0] S16x1x1x1024
  slices_S16x1x1024x1024_S16x1x1023x1024_0_0_0_0 : S16x1x1024x1024.Slices ![0, 0, 0, 0] S16x1x1023x1024
  concatenates_S16x1x1x1024_S16x1x1023x1024_S16x1x1024x1024_d2 : Shape.Concatenates [S16x1x1x1024, S16x1x1023x1024] S16x1x1024x1024 2
  slices_S16x1x1024x1024_S16x1x1024x1023_0_0_0_1 : S16x1x1024x1024.Slices ![0, 0, 0, 1] S16x1x1024x1023
  slices_S16x1x1024x1024_S16x1x1024x1_0_0_0_0 : S16x1x1024x1024.Slices ![0, 0, 0, 0] S16x1x1024x1
  concatenates_S16x1x1024x1023_S16x1x1024x1_S16x1x1024x1024_d3 : Shape.Concatenates [S16x1x1024x1023, S16x1x1024x1] S16x1x1024x1024 3
  slices_S16x1x1024x1024_S16x1x1024x1_0_0_0_1023 : S16x1x1024x1024.Slices ![0, 0, 0, 1023] S16x1x1024x1
  slices_S16x1x1024x1024_S16x1x1024x1023_0_0_0_0 : S16x1x1024x1024.Slices ![0, 0, 0, 0] S16x1x1024x1023
  concatenates_S16x1x1024x1_S16x1x1024x1023_S16x1x1024x1024_d3 : Shape.Concatenates [S16x1x1024x1, S16x1x1024x1023] S16x1x1024x1024 3

variable [Facts₀]

class Facts : Prop extends Facts₀ where

variable [Facts]
-- ==== Proof.LibRoll.lean ====
/-
  A circular shift by one position, read at an index — generic in every extent.

  `nxt` and `prv` step forward and back around a circle of `n` positions. Two spellings of the shift of an array along
  one of its last two axes are read at an index through them:

  * the vector unit's rotation of a rank-3 block [A, H, W] along axis 1 or 2 by an amount `s` (entry `j` of the result
    is entry `j − s` of the operand, around the circle): rotating by the extent less one reads one step forward,
    rotating by one reads one step back;
  * the host's shift of a rank-4 array [B, C, H, W] along axis 2 or 3, written as two slices joined along the axis:
    the entries from 1 on followed by entry 0 (one step forward), or the last entry followed by the entries before it
    (one step back). The concatenation picks its piece by the coordinate on the joined axis, and either piece reads the
    operand at the shifted coordinate.

  The longer piece's extent is tied to the axis's by an equation (`H' + 1 = H`), so that a program's literal shapes
  match the statement as they stand.
-/
import Idealize.ShloMosaic.Lib.Pipeline.Value
import Idealize.ShloMosaic.Lib.KernelVsHost

noncomputable section

namespace Cert.Roll

open Idealize.ShloMosaic Idealize.ShloMosaic.ValueIdx

/-! ## Steps around a circle -/

/-- One step forward around a circle of `n` positions. -/
def nxt {n : Nat} (h : Fin n) : Fin n := ⟨(h.val + 1) % n, Nat.mod_lt _ (Fin.pos h)⟩
/-- One step back around it. -/
def prv {n : Nat} (h : Fin n) : Fin n := ⟨(h.val + (n - 1)) % n, Nat.mod_lt _ (Fin.pos h)⟩

theorem nxt_val {n : Nat} (h : Fin n) : (nxt h).val = (h.val + 1) % n := rfl
theorem prv_val {n : Nat} (h : Fin n) : (prv h).val = (h.val + (n - 1)) % n := rfl

/-- Below the last position a step forward is the successor. -/
theorem nxt_val_of_lt {n : Nat} (h : Fin n) (hh : h.val + 1 < n) : (nxt h).val = h.val + 1 :=
  Nat.mod_eq_of_lt hh
/-- From the last position a step forward is position 0. -/
theorem nxt_val_of_last {n : Nat} (h : Fin n) (hh : h.val + 1 = n) : (nxt h).val = 0 := by
  rw [nxt_val, hh, Nat.mod_self]
/-- From position 0 a step back is the last position. -/
theorem prv_val_of_zero {n : Nat} (h : Fin n) (hh : h.val = 0) : (prv h).val = n - 1 := by
  have := h.isLt
  rw [prv_val, hh, Nat.zero_add]
  exact Nat.mod_eq_of_lt (by omega)
/-- From any other position a step back is the predecessor. -/
theorem prv_val_of_pos {n : Nat} (h : Fin n) (hh : 0 < h.val) : (prv h).val = h.val - 1 := by
  have := h.isLt
  rw [prv_val, show h.val + (n - 1) = h.val - 1 + n by omega, Nat.add_mod_right]
  exact Nat.mod_eq_of_lt (by omega)

/-- The index a rotation by `n − 1` reads is one step forward. -/
theorem rot_index_fwd {n : Nat} (h : Fin n) (s : Nat) (hs : s = n - 1) :
    (nxt h).val = (h.val + n - s % n) % n := by
  have := h.isLt
  subst hs
  rw [nxt_val, Nat.mod_eq_of_lt (by omega : n - 1 < n), show h.val + n - (n - 1) = h.val + 1 by omega]
/-- The index a rotation by `1` reads is one step back. -/
theorem rot_index_back {n : Nat} (h : Fin n) (s : Nat) (hs : s = 1) :
    (prv h).val = (h.val + n - s % n) % n := by
  have := h.isLt
  subst hs
  rw [prv_val]
  by_cases h1 : n = 1
  · subst h1; rw [Nat.mod_one, Nat.mod_one]
  · rw [Nat.mod_eq_of_lt (by omega : 1 < n), show h.val + n - 1 = h.val + (n - 1) by omega]

variable {α : Type}

/-! ## The vector unit's rotation of a rank-3 block -/

/-- Rotating along axis 1 by its extent less one reads one step forward on that axis. -/
theorem rot_fwd_ax1 {A H W : Nat} (sb : BitVec 32) (hsb : sb.toNat = H - 1) (x : (⟨3, ![A, H, W]⟩ : Shape).Idx → α)
    (hr : (⟨3, ![A, H, W]⟩ : Shape).Rotates 1 none) (z : Fin A) (h : Fin H) (w : Fin W) :
    dynamicRotate 1 sb none x hr (ix3 z h w) = x (ix3 z (nxt h) w) :=
  dynamicRotate_apply 1 sb x hr _ _ fun b => by
    match b with
    | ⟨0, _⟩ => rfl
    | ⟨1, _⟩ => exact rot_index_fwd h _ hsb
    | ⟨2, _⟩ => rfl

/-- Rotating along axis 1 by one reads one step back on that axis. -/
theorem rot_back_ax1 {A H W : Nat} (sb : BitVec 32) (hsb : sb.toNat = 1) (x : (⟨3, ![A, H, W]⟩ : Shape).Idx → α)
    (hr : (⟨3, ![A, H, W]⟩ : Shape).Rotates 1 none) (z : Fin A) (h : Fin H) (w : Fin W) :
    dynamicRotate 1 sb none x hr (ix3 z h w) = x (ix3 z (prv h) w) :=
  dynamicRotate_apply 1 sb x hr _ _ fun b => by
    match b with
    | ⟨0, _⟩ => rfl
    | ⟨1, _⟩ => exact rot_index_back h _ hsb
    | ⟨2, _⟩ => rfl

/-- Rotating along axis 2 by its extent less one reads one step forward on that axis. -/
theorem rot_fwd_ax2 {A H W : Nat} (sb : BitVec 32) (hsb : sb.toNat = W - 1) (x : (⟨3, ![A, H, W]⟩ : Shape).Idx → α)
    (hr : (⟨3, ![A, H, W]⟩ : Shape).Rotates 2 none) (z : Fin A) (h : Fin H) (w : Fin W) :
    dynamicRotate 2 sb none x hr (ix3 z h w) = x (ix3 z h (nxt w)) :=
  dynamicRotate_apply 2 sb x hr _ _ fun b => by
    match b with
    | ⟨0, _⟩ => rfl
    | ⟨1, _⟩ => rfl
    | ⟨2, _⟩ => exact rot_index_fwd w _ hsb

/-- Rotating along axis 2 by one reads one step back on that axis. -/
theorem rot_back_ax2 {A H W : Nat} (sb : BitVec 32) (hsb : sb.toNat = 1) (x : (⟨3, ![A, H, W]⟩ : Shape).Idx → α)
    (hr : (⟨3, ![A, H, W]⟩ : Shape).Rotates 2 none) (z : Fin A) (h : Fin H) (w : Fin W) :
    dynamicRotate 2 sb none x hr (ix3 z h w) = x (ix3 z h (prv w)) :=
  dynamicRotate_apply 2 sb x hr _ _ fun b => by
    match b with
    | ⟨0, _⟩ => rfl
    | ⟨1, _⟩ => rfl
    | ⟨2, _⟩ => exact rot_index_back w _ hsb

/-! ## The host's shift of a rank-4 array: two slices joined -/

section Host
variable {B C H W H' W' : Nat}

/-- Entries 1… of axis 2 followed by entry 0: one step forward on axis 2. -/
theorem roll_fwd_ax2 (hH : H' + 1 = H) (x : (⟨4, ![B, C, H, W]⟩ : Shape).Idx → α)
    (h1 : (⟨4, ![B, C, H, W]⟩ : Shape).Slices ![0, 0, 1, 0] ⟨4, ![B, C, H', W]⟩)
    (h2 : (⟨4, ![B, C, H, W]⟩ : Shape).Slices ![0, 0, 0, 0] ⟨4, ![B, C, 1, W]⟩)
    (hc : Shape.Concatenates [⟨4, ![B, C, H', W]⟩, ⟨4, ![B, C, 1, W]⟩] ⟨4, ![B, C, H, W]⟩ 2)
    (b : Fin B) (z : Fin C) (h : Fin H) (w : Fin W) :
    concatenate ⟨4, ![B, C, H, W]⟩ 2
      [⟨⟨4, ![B, C, H', W]⟩, extractStridedSlice ⟨4, ![B, C, H', W]⟩ ![0, 0, 1, 0] x h1⟩,
       ⟨⟨4, ![B, C, 1, W]⟩, extractStridedSlice ⟨4, ![B, C, 1, W]⟩ ![0, 0, 0, 0] x h2⟩] hc (ix4 b z h w)
      = x (ix4 b z (nxt h) w) := by
  have hlt := h.isLt
  by_cases hh : h.val < H'
  · refine (concatenate_pair_apply_left 2 _ _ hc (ix4 b z h w) rfl (ix4 b z ⟨h.val, hh⟩ w) fun a => ?_).trans ?_
    · match a with
      | ⟨0, _⟩ => rfl
      | ⟨1, _⟩ => rfl
      | ⟨2, _⟩ => rfl
      | ⟨3, _⟩ => rfl
    · refine extractStridedSlice_apply ![0, 0, 1, 0] x h1 _ _ fun a => ?_
      match a with
      | ⟨0, _⟩ => show b.val = 0 + b.val; omega
      | ⟨1, _⟩ => show z.val = 0 + z.val; omega
      | ⟨2, _⟩ => show (nxt h).val = 1 + h.val; rw [nxt_val_of_lt h (by omega)]; omega
      | ⟨3, _⟩ => show w.val = 0 + w.val; omega
  · have hz : (0 : Nat) < 1 := by decide
    refine (concatenate_pair_apply_right 2 _ _ hc (ix4 b z h w) rfl rfl (ix4 b z ⟨0, hz⟩ w) (fun a ha => ?_) ?_).trans ?_
    · match a with
      | ⟨0, _⟩ => rfl
      | ⟨1, _⟩ => rfl
      | ⟨2, _⟩ => exact absurd rfl ha
      | ⟨3, _⟩ => rfl
    · show 0 + H' = h.val; omega
    · refine extractStridedSlice_apply ![0, 0, 0, 0] x h2 _ _ fun a => ?_
      match a with
      | ⟨0, _⟩ => show b.val = 0 + b.val; omega
      | ⟨1, _⟩ => show z.val = 0 + z.val; omega
      | ⟨2, _⟩ => show (nxt h).val = 0 + 0; rw [nxt_val_of_last h (by omega)]
      | ⟨3, _⟩ => show w.val = 0 + w.val; omega

/-- The last entry of axis 2 followed by the entries before it: one step back on axis 2. -/
theorem roll_back_ax2 (hH : H' + 1 = H) (x : (⟨4, ![B, C, H, W]⟩ : Shape).Idx → α)
    (h1 : (⟨4, ![B, C, H, W]⟩ : Shape).Slices ![0, 0, H', 0] ⟨4, ![B, C, 1, W]⟩)
    (h2 : (⟨4, ![B, C, H, W]⟩ : Shape).Slices ![0, 0, 0, 0] ⟨4, ![B, C, H', W]⟩)
    (hc : Shape.Concatenates [⟨4, ![B, C, 1, W]⟩, ⟨4, ![B, C, H', W]⟩] ⟨4, ![B, C, H, W]⟩ 2)
    (b : Fin B) (z : Fin C) (h : Fin H) (w : Fin W) :
    concatenate ⟨4, ![B, C, H, W]⟩ 2
      [⟨⟨4, ![B, C, 1, W]⟩, extractStridedSlice ⟨4, ![B, C, 1, W]⟩ ![0, 0, H', 0] x h1⟩,
       ⟨⟨4, ![B, C, H', W]⟩, extractStridedSlice ⟨4, ![B, C, H', W]⟩ ![0, 0, 0, 0] x h2⟩] hc (ix4 b z h w)
      = x (ix4 b z (prv h) w) := by
  have hlt := h.isLt
  by_cases hh : h.val < 1
  · refine (concatenate_pair_apply_left 2 _ _ hc (ix4 b z h w) rfl (ix4 b z ⟨h.val, hh⟩ w) fun a => ?_).trans ?_
    · match a with
      | ⟨0, _⟩ => rfl
      | ⟨1, _⟩ => rfl
      | ⟨2, _⟩ => rfl
      | ⟨3, _⟩ => rfl
    · refine extractStridedSlice_apply ![0, 0, H', 0] x h1 _ _ fun a => ?_
      match a with
      | ⟨0, _⟩ => show b.val = 0 + b.val; omega
      | ⟨1, _⟩ => show z.val = 0 + z.val; omega
      | ⟨2, _⟩ => show (prv h).val = H' + h.val; rw [prv_val_of_zero h (by omega)]; omega
      | ⟨3, _⟩ => show w.val = 0 + w.val; omega
  · have hp : h.val - 1 < H' := by omega
    refine (concatenate_pair_apply_right 2 _ _ hc (ix4 b z h w) rfl rfl (ix4 b z ⟨h.val - 1, hp⟩ w) (fun a ha => ?_) ?_).trans ?_
    · match a with
      | ⟨0, _⟩ => rfl
      | ⟨1, _⟩ => rfl
      | ⟨2, _⟩ => exact absurd rfl ha
      | ⟨3, _⟩ => rfl
    · show h.val - 1 + 1 = h.val; omega
    · refine extractStridedSlice_apply ![0, 0, 0, 0] x h2 _ _ fun a => ?_
      match a with
      | ⟨0, _⟩ => show b.val = 0 + b.val; omega
      | ⟨1, _⟩ => show z.val = 0 + z.val; omega
      | ⟨2, _⟩ => show (prv h).val = 0 + (h.val - 1); rw [prv_val_of_pos h (by omega)]; omega
      | ⟨3, _⟩ => show w.val = 0 + w.val; omega

/-- Entries 1… of axis 3 followed by entry 0: one step forward on axis 3. -/
theorem roll_fwd_ax3 (hW : W' + 1 = W) (x : (⟨4, ![B, C, H, W]⟩ : Shape).Idx → α)
    (h1 : (⟨4, ![B, C, H, W]⟩ : Shape).Slices ![0, 0, 0, 1] ⟨4, ![B, C, H, W']⟩)
    (h2 : (⟨4, ![B, C, H, W]⟩ : Shape).Slices ![0, 0, 0, 0] ⟨4, ![B, C, H, 1]⟩)
    (hc : Shape.Concatenates [⟨4, ![B, C, H, W']⟩, ⟨4, ![B, C, H, 1]⟩] ⟨4, ![B, C, H, W]⟩ 3)
    (b : Fin B) (z : Fin C) (h : Fin H) (w : Fin W) :
    concatenate ⟨4, ![B, C, H, W]⟩ 3
      [⟨⟨4, ![B, C, H, W']⟩, extractStridedSlice ⟨4, ![B, C, H, W']⟩ ![0, 0, 0, 1] x h1⟩,
       ⟨⟨4, ![B, C, H, 1]⟩, extractStridedSlice ⟨4, ![B, C, H, 1]⟩ ![0, 0, 0, 0] x h2⟩] hc (ix4 b z h w)
      = x (ix4 b z h (nxt w)) := by
  have hlt := w.isLt
  by_cases hh : w.val < W'
  · refine (concatenate_pair_apply_left 3 _ _ hc (ix4 b z h w) rfl (ix4 b z h ⟨w.val, hh⟩) fun a => ?_).trans ?_
    · match a with
      | ⟨0, _⟩ => rfl
      | ⟨1, _⟩ => rfl
      | ⟨2, _⟩ => rfl
      | ⟨3, _⟩ => rfl
    · refine extractStridedSlice_apply ![0, 0, 0, 1] x h1 _ _ fun a => ?_
      match a with
      | ⟨0, _⟩ => show b.val = 0 + b.val; omega
      | ⟨1, _⟩ => show z.val = 0 + z.val; omega
      | ⟨2, _⟩ => show h.val = 0 + h.val; omega
      | ⟨3, _⟩ => show (nxt w).val = 1 + w.val; rw [nxt_val_of_lt w (by omega)]; omega
  · have hz : (0 : Nat) < 1 := by decide
    refine (concatenate_pair_apply_right 3 _ _ hc (ix4 b z h w) rfl rfl (ix4 b z h ⟨0, hz⟩) (fun a ha => ?_) ?_).trans ?_
    · match a with
      | ⟨0, _⟩ => rfl
      | ⟨1, _⟩ => rfl
      | ⟨2, _⟩ => rfl
      | ⟨3, _⟩ => exact absurd rfl ha
    · show 0 + W' = w.val; omega
    · refine extractStridedSlice_apply ![0, 0, 0, 0] x h2 _ _ fun a => ?_
      match a with
      | ⟨0, _⟩ => show b.val = 0 + b.val; omega
      | ⟨1, _⟩ => show z.val = 0 + z.val; omega
      | ⟨2, _⟩ => show h.val = 0 + h.val; omega
      | ⟨3, _⟩ => show (nxt w).val = 0 + 0; rw [nxt_val_of_last w (by omega)]

/-- The last entry of axis 3 followed by the entries before it: one step back on axis 3. -/
theorem roll_back_ax3 (hW : W' + 1 = W) (x : (⟨4, ![B, C, H, W]⟩ : Shape).Idx → α)
    (h1 : (⟨4, ![B, C, H, W]⟩ : Shape).Slices ![0, 0, 0, W'] ⟨4, ![B, C, H, 1]⟩)
    (h2 : (⟨4, ![B, C, H, W]⟩ : Shape).Slices ![0, 0, 0, 0] ⟨4, ![B, C, H, W']⟩)
    (hc : Shape.Concatenates [⟨4, ![B, C, H, 1]⟩, ⟨4, ![B, C, H, W']⟩] ⟨4, ![B, C, H, W]⟩ 3)
    (b : Fin B) (z : Fin C) (h : Fin H) (w : Fin W) :
    concatenate ⟨4, ![B, C, H, W]⟩ 3
      [⟨⟨4, ![B, C, H, 1]⟩, extractStridedSlice ⟨4, ![B, C, H, 1]⟩ ![0, 0, 0, W'] x h1⟩,
       ⟨⟨4, ![B, C, H, W']⟩, extractStridedSlice ⟨4, ![B, C, H, W']⟩ ![0, 0, 0, 0] x h2⟩] hc (ix4 b z h w)
      = x (ix4 b z h (prv w)) := by
  have hlt := w.isLt
  by_cases hh : w.val < 1
  · refine (concatenate_pair_apply_left 3 _ _ hc (ix4 b z h w) rfl (ix4 b z h ⟨w.val, hh⟩) fun a => ?_).trans ?_
    · match a with
      | ⟨0, _⟩ => rfl
      | ⟨1, _⟩ => rfl
      | ⟨2, _⟩ => rfl
      | ⟨3, _⟩ => rfl
    · refine extractStridedSlice_apply ![0, 0, 0, W'] x h1 _ _ fun a => ?_
      match a with
      | ⟨0, _⟩ => show b.val = 0 + b.val; omega
      | ⟨1, _⟩ => show z.val = 0 + z.val; omega
      | ⟨2, _⟩ => show h.val = 0 + h.val; omega
      | ⟨3, _⟩ => show (prv w).val = W' + w.val; rw [prv_val_of_zero w (by omega)]; omega
  · have hp : w.val - 1 < W' := by omega
    refine (concatenate_pair_apply_right 3 _ _ hc (ix4 b z h w) rfl rfl (ix4 b z h ⟨w.val - 1, hp⟩) (fun a ha => ?_) ?_).trans ?_
    · match a with
      | ⟨0, _⟩ => rfl
      | ⟨1, _⟩ => rfl
      | ⟨2, _⟩ => rfl
      | ⟨3, _⟩ => exact absurd rfl ha
    · show w.val - 1 + 1 = w.val; omega
    · refine extractStridedSlice_apply ![0, 0, 0, 0] x h2 _ _ fun a => ?_
      match a with
      | ⟨0, _⟩ => show b.val = 0 + b.val; omega
      | ⟨1, _⟩ => show z.val = 0 + z.val; omega
      | ⟨2, _⟩ => show h.val = 0 + h.val; omega
      | ⟨3, _⟩ => show (prv w).val = 0 + (w.val - 1); rw [prv_val_of_pos w (by omega)]; omega

end Host

end Cert.Roll

end
-- ==== Proof.Stencil.lean ====
/-
  The circular forward-average / forward-difference flux and its backward-difference divergence on a periodic
  1024 × 1024 grid, over the extended reals: the one function both programs compute, and the law that joins their two
  ways of adding its four terms.

  With `s` the step to the next position around the circle and `p` the step back, the flux along an axis at a
  position is `(½ · (M(next) + M(here))) · (μ(next) − μ(here))`, and the divergence is the flux here minus the flux one
  step back, summed over the two axes. One program adds `(f − f') + (g − g')`; the other starts from zero and adds
  and subtracts the four terms in turn, `(((0 + f) − f') + g) − g'`. On the extended reals a difference is the sum with
  the negation, so the two are re-associations of one sum of four terms: no finiteness is needed.
-/
import proofs.«118862_j65661460021676_2_alg».proof.Proof.LibRoll
import Idealize.ShloMosaic.PureOps.Ideal
import Idealize.ShloMosaic.Lib.ValueIdx

noncomputable section

namespace Cert.DivGrad

open Idealize.ShloMosaic Idealize.ShloMosaic.ValueIdx

-- the steps forward and back around a circle (here of 1024 positions)
export Cert.Roll (nxt prv)

/-- The flux at a position from the two fields' values there (`m`, `u`) and one step forward (`m'`, `u'`):
    the forward average of `M` scaled by `c` (the programs' ½), times the forward difference of `μ`. -/
def flux (c m' m u' u : EReal) : EReal := (c * (m' + m)) * (u' - u)

/-- The scale of the forward average: the f32 word of one half, read as an extended real. -/
abbrev half : EReal := Ideal.ofBits .f32 0x3F000000#32

/-- The two programs' sums of the four terms agree on all extended reals: a difference is the sum with the
    negation, and the rest is associativity and `0 + x = x`. -/
theorem sum_forms (f f' g g' : EReal) : (((0 + f) - f') + g) - g' = (f - f') + (g - g') := by
  simp only [zero_add, sub_eq_add_neg, add_assoc]

/-! ## On a stack of 1024 × 1024 images

A stack of `n` images has shape [n, 1024, 1024]; the shifts act on the last two axes only, so one definition serves
the whole stack of sixteen (`n = 16`) and a single image cut out of it (`n = 1`). -/

/-- The shape of a stack of `n` images. -/
abbrev Stack (n : Nat) : Shape := ⟨3, ![n, 1024, 1024]⟩

/-- The flux along the rows' axis (axis 1) of image `b` at row `h`, column `w`. -/
def fluxH3 {n : Nat} (c : EReal) (M mu : (Stack n).Idx → EReal) (b : Fin n) (h w : Fin 1024) : EReal :=
  flux c (M (ix3 b (nxt h) w)) (M (ix3 b h w)) (mu (ix3 b (nxt h) w)) (mu (ix3 b h w))
/-- The flux along the columns' axis (axis 2). -/
def fluxW3 {n : Nat} (c : EReal) (M mu : (Stack n).Idx → EReal) (b : Fin n) (h w : Fin 1024) : EReal :=
  flux c (M (ix3 b h (nxt w))) (M (ix3 b h w)) (mu (ix3 b h (nxt w))) (mu (ix3 b h w))

/-- The divergence of the flux on the stack. -/
def divGrad3 {n : Nat} (c : EReal) (M mu : (Stack n).Idx → EReal) : (Stack n).Idx → EReal := fun i =>
  (fluxH3 c M mu (i 0) (i 1) (i 2) - fluxH3 c M mu (i 0) (prv (i 1)) (i 2))
    + (fluxW3 c M mu (i 0) (i 1) (i 2) - fluxW3 c M mu (i 0) (i 1) (prv (i 2)))

/-- The divergence at an index given by its coordinates. -/
theorem divGrad3_ix3 {n : Nat} (c : EReal) (M mu : (Stack n).Idx → EReal) (b : Fin n) (h w : Fin 1024) :
    divGrad3 c M mu (ix3 b h w)
      = (fluxH3 c M mu b h w - fluxH3 c M mu b (prv h) w) + (fluxW3 c M mu b h w - fluxW3 c M mu b h (prv w)) := rfl

/-! ## On the batch of sixteen one-channel 1024 × 1024 images -/

/-- The shape of both arguments and of the result. -/
abbrev S4 : Shape := ⟨4, ![16, 1, 1024, 1024]⟩

/-- The flux along the rows' axis (axis 2) at `(b, z, h, w)`. -/
def fluxH (c : EReal) (M mu : S4.Idx → EReal) (b : Fin 16) (z : Fin 1) (h w : Fin 1024) : EReal :=
  flux c (M (ix4 b z (nxt h) w)) (M (ix4 b z h w)) (mu (ix4 b z (nxt h) w)) (mu (ix4 b z h w))
/-- The flux along the columns' axis (axis 3) at `(b, z, h, w)`. -/
def fluxW (c : EReal) (M mu : S4.Idx → EReal) (b : Fin 16) (z : Fin 1) (h w : Fin 1024) : EReal :=
  flux c (M (ix4 b z h (nxt w))) (M (ix4 b z h w)) (mu (ix4 b z h (nxt w))) (mu (ix4 b z h w))

/-- The divergence of the flux: along each axis the flux here minus the flux one step back, the two axes added. -/
def divGrad (c : EReal) (M mu : S4.Idx → EReal) : S4.Idx → EReal := fun i =>
  (fluxH c M mu (i 0) (i 1) (i 2) (i 3) - fluxH c M mu (i 0) (i 1) (prv (i 2)) (i 3))
    + (fluxW c M mu (i 0) (i 1) (i 2) (i 3) - fluxW c M mu (i 0) (i 1) (i 2) (prv (i 3)))

/-- The divergence at an index given by its coordinates. -/
theorem divGrad_ix4 (c : EReal) (M mu : S4.Idx → EReal) (b : Fin 16) (z : Fin 1) (h w : Fin 1024) :
    divGrad c M mu (ix4 b z h w)
      = (fluxH c M mu b z h w - fluxH c M mu b z (prv h) w) + (fluxW c M mu b z h w - fluxW c M mu b z h (prv w)) := rfl

end Cert.DivGrad

end
-- ==== Proof.Rolls.lean ====
/-
  The circular shifts of this pair of programs, read at an index: the general statements at the extents met here.

  On the vector unit a block [1, 1024, 1024] is rotated along axis 1 or 2 by 1023 (one step forward) or by 1 (one step
  back). On the host a [16, 1, 1024, 1024] array is shifted along axis 2 or 3 by joining the slice of entries 1…1023
  with entry 0 (one step forward) or entry 1023 with entries 0…1022 (one step back).
-/
import proofs.«118862_j65661460021676_2_alg».proof.Proof.Stencil

noncomputable section

namespace Cert.DivGrad

open Idealize.ShloMosaic Idealize.ShloMosaic.ValueIdx

variable {α : Type}

/-! ## The vector unit's rotation of a [1, 1024, 1024] block -/

/-- The shape of a block: a stack of one image. -/
abbrev S3 : Shape := Stack 1

theorem rot_fwd_ax1 (x : S3.Idx → α) (hr : S3.Rotates 1 none) (z : Fin 1) (h w : Fin 1024) :
    dynamicRotate 1 1023#32 none x hr (ix3 z h w) = x (ix3 z (nxt h) w) :=
  Cert.Roll.rot_fwd_ax1 1023#32 rfl x hr z h w

theorem rot_back_ax1 (x : S3.Idx → α) (hr : S3.Rotates 1 none) (z : Fin 1) (h w : Fin 1024) :
    dynamicRotate 1 1#32 none x hr (ix3 z h w) = x (ix3 z (prv h) w) :=
  Cert.Roll.rot_back_ax1 1#32 rfl x hr z h w

theorem rot_fwd_ax2 (x : S3.Idx → α) (hr : S3.Rotates 2 none) (z : Fin 1) (h w : Fin 1024) :
    dynamicRotate 2 1023#32 none x hr (ix3 z h w) = x (ix3 z h (nxt w)) :=
  Cert.Roll.rot_fwd_ax2 1023#32 rfl x hr z h w

theorem rot_back_ax2 (x : S3.Idx → α) (hr : S3.Rotates 2 none) (z : Fin 1) (h w : Fin 1024) :
    dynamicRotate 2 1#32 none x hr (ix3 z h w) = x (ix3 z h (prv w)) :=
  Cert.Roll.rot_back_ax2 1#32 rfl x hr z h w

/-! ## The host's shift of a [16, 1, 1024, 1024] array: two slices joined -/

/-- The pieces' shapes: all but one position of axis 2, one position of axis 2, and the same for axis 3. -/
abbrev S4h : Shape := ⟨4, ![16, 1, 1023, 1024]⟩
abbrev S4h1 : Shape := ⟨4, ![16, 1, 1, 1024]⟩
abbrev S4w : Shape := ⟨4, ![16, 1, 1024, 1023]⟩
abbrev S4w1 : Shape := ⟨4, ![16, 1, 1024, 1]⟩

theorem roll_fwd_ax2 (x : S4.Idx → α) (h1 : S4.Slices ![0, 0, 1, 0] S4h) (h2 : S4.Slices ![0, 0, 0, 0] S4h1)
    (hc : Shape.Concatenates [S4h, S4h1] S4 2) (b : Fin 16) (z : Fin 1) (h w : Fin 1024) :
    concatenate S4 2 [⟨S4h, extractStridedSlice S4h ![0, 0, 1, 0] x h1⟩, ⟨S4h1, extractStridedSlice S4h1 ![0, 0, 0, 0] x h2⟩] hc
      (ix4 b z h w) = x (ix4 b z (nxt h) w) :=
  Cert.Roll.roll_fwd_ax2 rfl x h1 h2 hc b z h w

theorem roll_back_ax2 (x : S4.Idx → α) (h1 : S4.Slices ![0, 0, 1023, 0] S4h1) (h2 : S4.Slices ![0, 0, 0, 0] S4h)
    (hc : Shape.Concatenates [S4h1, S4h] S4 2) (b : Fin 16) (z : Fin 1) (h w : Fin 1024) :
    concatenate S4 2 [⟨S4h1, extractStridedSlice S4h1 ![0, 0, 1023, 0] x h1⟩, ⟨S4h, extractStridedSlice S4h ![0, 0, 0, 0] x h2⟩] hc
      (ix4 b z h w) = x (ix4 b z (prv h) w) :=
  Cert.Roll.roll_back_ax2 rfl x h1 h2 hc b z h w

theorem roll_fwd_ax3 (x : S4.Idx → α) (h1 : S4.Slices ![0, 0, 0, 1] S4w) (h2 : S4.Slices ![0, 0, 0, 0] S4w1)
    (hc : Shape.Concatenates [S4w, S4w1] S4 3) (b : Fin 16) (z : Fin 1) (h w : Fin 1024) :
    concatenate S4 3 [⟨S4w, extractStridedSlice S4w ![0, 0, 0, 1] x h1⟩, ⟨S4w1, extractStridedSlice S4w1 ![0, 0, 0, 0] x h2⟩] hc
      (ix4 b z h w) = x (ix4 b z h (nxt w)) :=
  Cert.Roll.roll_fwd_ax3 rfl x h1 h2 hc b z h w

theorem roll_back_ax3 (x : S4.Idx → α) (h1 : S4.Slices ![0, 0, 0, 1023] S4w1) (h2 : S4.Slices ![0, 0, 0, 0] S4w)
    (hc : Shape.Concatenates [S4w1, S4w] S4 3) (b : Fin 16) (z : Fin 1) (h w : Fin 1024) :
    concatenate S4 3 [⟨S4w1, extractStridedSlice S4w1 ![0, 0, 0, 1023] x h1⟩, ⟨S4w, extractStridedSlice S4w ![0, 0, 0, 0] x h2⟩] hc
      (ix4 b z h w) = x (ix4 b z h (prv w)) :=
  Cert.Roll.roll_back_ax3 rfl x h1 h2 hc b z h w

end Cert.DivGrad

end
-- ==== Proof.BlockValue.lean ====
/-
  What one grid point of the kernel leaves in its output block, as a value.

  The body loads the point's blocks of `M` and `μ` (one image each, [1, 1024, 1024]), stores the rows' part
  `v − v↓` of the divergence (the flux along the rows minus itself rotated one row back), reads that store back, adds
  the columns' part `u − u←`, and stores the sum. So the block ends at the second store's value computed over the
  first's, and read at `(z, h, w)` that value is the divergence of the flux of the two loaded images there: the
  rotations by 1023 and by 1 read one step forward and one step back around each axis.
-/
import proofs.«118862_j65661460021676_2_alg».proof.Proof.Gen.KernelIdeal.Frame
import proofs.«118862_j65661460021676_2_alg».proof.Proof.Rolls
import Idealize.ShloMosaic.Lib.Pipeline.Value
import Idealize.ShloMosaic.Lib.Tactic

noncomputable section

open Idealize.ShloMosaic Idealize.ShloMosaic.TcCoe Idealize.ShloMosaic.ValueIdx Idealize.SL.Sem

namespace Cert.KernelIdeal.BlockValue

open Cert.KernelIdeal Cert.KernelIdeal.Gen Cert.DivGrad

theorem hz : (![0, 0, 0] : Fin 3 → Nat) = fun _ => 0 := funext fun a => by fin_cases a <;> rfl

/-- The output block after the body, for any float values: both stores write the whole block, so it holds the
    second store's value, whose read-back of the block is the first store's value. -/
theorem out_eq {F : FTy → Type} [FloatOps F] (c : Dev nD) (i : grid0.Coords)
    (a1 : Memref sig .tc .vmem S1x1024x1024 .f32) (h1 : a1.IsWhole)
    (a2 : Memref sig .tc .vmem S1x1024x1024 .f32) (h2 : a2.IsWhole)
    (a3 : Memref sig .tc .vmem S1x1024x1024 .f32) (h3 : a3.IsWhole) (x0 x1 : Vec F S1x1024x1024 .f32) :
    out0_A_2 c i a1 h1 a2 h2 a3 h3 x0 x1 = k0_pay4 x0 x1 (k0_pay3 x0 x1) := by
  unfold out0_A_2
  rw [View.read_writes_eq_canon _ _ _ (cover0_A_2 c i a1 h1 a2 h2 a3 h3 x0 x1)]
  unfold kernelRun0_A
  dsimp only
  sl_unfold_words
  rw [View.canon_cons_unit_zero (S := S1x1024x1024) hz, View.readCov_unit_zero (S := S1x1024x1024) _ hz]
  simp only [View.readAt_eq_ld, h1.read_unread, h2.read_unread, View.ld_unit_zero (S := S1x1024x1024) hz]

/-- At the extended reals that value is the divergence of the flux of the two loaded images. -/
theorem pay_eq (x0 x1 : Vec Ideal S1x1024x1024 .f32) :
    k0_pay4 x0 x1 (k0_pay3 x0 x1) = divGrad3 (n := 1) half x0 x1 := by
  funext j
  obtain ⟨z, h, w, rfl⟩ : ∃ (z : Fin 1) (h w : Fin 1024), j = ix3 z h w := ⟨j 0, j 1, j 2, eq_ix3 j⟩
  unfold k0_pay4 k0_pay3 k0_pay1 k0_pay2
  simp only [shapeCast_self, addf_apply, subf_apply]
  rw [rot_back_ax1, rot_back_ax2]
  simp only [mulf_apply, addf_apply, subf_apply, broadcast_apply, rot_fwd_ax1 x0, rot_fwd_ax1 x1, rot_fwd_ax2 x0,
    rot_fwd_ax2 x1]
  rfl

end Cert.KernelIdeal.BlockValue

end
-- ==== Proof.ArrayValue.lean ====
/-
  From the kernel's blocks to its result array, and through the two reshapes around the call.

  The grid has sixteen points; point `t` works on image `t`: its blocks of the two inputs and of the output are the
  [1, 1024, 1024] slices at position `t` of the [16, 1024, 1024] arrays. Both shifts act inside an image, so what a
  point writes back is image `t` of the divergence of the flux of the WHOLE input stacks, the sixteen blocks tile the
  output array, and the array ends at that divergence. The input stacks are the arguments with the unit channel axis
  dropped (a reshape [16, 1, 1024, 1024] → [16, 1024, 1024]), and the program's result is the output array with that
  axis put back: both reshapes keep the row-major position, so entry `(b, z, h, w)` of one side is entry `(b, h, w)`
  of the other, and the result is the divergence of the flux of the arguments themselves.
-/
import proofs.«118862_j65661460021676_2_alg».proof.Proof.Gen.KernelIdeal.Frame
import proofs.«118862_j65661460021676_2_alg».proof.Proof.BlockValue
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.ArrayValue

open Cert.KernelIdeal Cert.KernelIdeal.Gen Cert.DivGrad Cert.KernelIdeal.BlockValue

variable (m : (ℓ : Loc nD τ sig) → Buf (Elt Ideal) ℓ) (ρ : Dev nD → PrngReg)

/-! ## The blocks -/

/-- Every window's block index at point `t` is `(t, 0, 0)`: decided over the sixteen points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The image a point works on. -/
def img (t : Fin cfg0.N) : Fin 16 := ⟨t.val, Nat.lt_of_lt_of_eq t.isLt (N_0 : cfg0.N = 16)⟩

/-- Point `t`'s block of the first input stack is image `t` of it. -/
theorem iblk0_apply (c : Dev nD) (t : Fin cfg0.N) (z : Fin 1) (h w : Fin 1024) :
    (iblk m c 0 t : Vec Ideal S1x1024x1024 .f32) (ix3 z h w)
      = (V m c main_v0 : S16x1024x1024.Idx → EReal) (ix3 (img t) h w) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * z.val = t.val; have := z.isLt; omega
  | ⟨1, _⟩ => show win0_0.index t (1 : Fin 3) * 1024 + 1 * h.val = h.val; omega
  | ⟨2, _⟩ => show win0_0.index t (2 : Fin 3) * 1024 + 1 * w.val = w.val; omega

/-- Point `t`'s block of the second input stack is image `t` of it. -/
theorem iblk1_apply (c : Dev nD) (t : Fin cfg0.N) (z : Fin 1) (h w : Fin 1024) :
    (iblk m c 1 t : Vec Ideal S1x1024x1024 .f32) (ix3 z h w)
      = (V m c main_v1 : S16x1024x1024.Idx → EReal) (ix3 (img t) h w) := by
  obtain ⟨-, -, -, e0, e1, e2, -⟩ := idx_facts t
  unfold iblk
  rw [View.read_apply]
  show V m c main_v1 _ = V m c main_v1 _
  congr 1
  funext a
  apply Fin.ext
  match a with
  | ⟨0, _⟩ => show win0_1.index t (0 : Fin 3) * 1 + 1 * z.val = t.val; have := z.isLt; omega
  | ⟨1, _⟩ => show win0_1.index t (1 : Fin 3) * 1024 + 1 * h.val = h.val; omega
  | ⟨2, _⟩ => show win0_1.index t (2 : Fin 3) * 1024 + 1 * w.val = w.val; omega

/-- What point `t` writes back is image `t` of the divergence of the flux of the two input stacks: the shifts stay
    inside the image, so the divergence of the one image is the stack's divergence read at that image. -/
theorem flushed_eq (c : Dev nD) (t : Fin cfg0.N) :
    (dats m 0 c).flushed 2 t = ((cfg0.win 2).blk t).view.read (Elt Ideal)
      (divGrad3 (n := 16) half (V m c main_v0) (V m c main_v1)) := by
  show (cfg0.win 2).cut (grid0.coords t) ((dats m 0 c).after 2 t) = _
  rw [after0_2]
  unfold outsAt0
  refine ((out_eq c _ _ _ _ _ _ _ (iblk m c 0 t) (iblk m c 1 t)).trans (pay_eq (iblk m c 0 t) (iblk m c 1 t))).trans ?_
  funext y
  obtain ⟨z, h, w, rfl⟩ : ∃ (z : Fin 1) (h w : Fin 1024), y = ix3 z h w := ⟨y 0, y 1, y 2, eq_ix3 y⟩
  rw [View.read_apply]
  have hemb : ((cfg0.win 2).blk t).view.emb (ix3 z h w) = (ix3 (img t) h w : S16x1024x1024.Idx) := by
    obtain ⟨-, -, -, -, -, -, e0, e1, e2⟩ := idx_facts t
    funext a
    apply Fin.ext
    match a with
    | ⟨0, _⟩ => show win0_2.index t (0 : Fin 3) * 1 + 1 * z.val = t.val; have := z.isLt; omega
    | ⟨1, _⟩ => show win0_2.index t (1 : Fin 3) * 1024 + 1 * h.val = h.val; omega
    | ⟨2, _⟩ => show win0_2.index t (2 : Fin 3) * 1024 + 1 * w.val = w.val; omega
  rw [hemb, divGrad3_ix3, divGrad3_ix3]
  unfold fluxH3 fluxW3
  simp only [iblk0_apply m c t, iblk1_apply m c t]
  rfl

/-- An index of the output array is in point `t`'s block iff each coordinate is in the block's range on its axis. -/
theorem mem_blk (t : Fin cfg0.N) (i : S16x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v2).slice (win0_2.rect t)).set ↔ _
  rw [View.set_slice_whole, Rect.mem_set_unit]
  exact Iff.rfl

/-- The output array after the run: entry `(b, h, w)` lies in the block of point `b`, so the sixteen blocks cover
    the array and it ends at the divergence of the flux of the two input stacks. -/
theorem final (c : Dev nD) :
    (dats m 0 c).arrAt 2 cfg0.N = divGrad3 (n := 16) half (V m c main_v0) (V m c main_v1) :=
  (dats m 0 c).arrAt_eq_of_cover 2 _ (fun t _ => flushed_eq m c t) fun (i : S16x1024x1024.Idx) => by
    have hi0 : (i 0).val < 16 := (i 0).isLt
    have hi1 : (i 1).val < 1024 := (i 1).isLt
    have hi2 : (i 2).val < 1024 := (i 2).isLt
    let t : Fin cfg0.N := ⟨(i 0).val, Nat.lt_of_lt_of_eq hi0 (N_0 : cfg0.N = 16).symm⟩
    have ht : t.val = (i 0).val := rfl
    refine ⟨t, flush0_2 t, ?_⟩
    rw [mem_blk]
    obtain ⟨-, -, -, -, -, -, e0, e1, e2⟩ := idx_facts t
    intro a
    match a with
    | ⟨0, _⟩ => show win0_2.index t (0 : Fin 3) * 1 ≤ (i 0).val ∧ (i 0).val < win0_2.index t (0 : Fin 3) * 1 + 1; rw [e0]; omega
    | ⟨1, _⟩ => show win0_2.index t (1 : Fin 3) * 1024 ≤ (i 1).val ∧ (i 1).val < win0_2.index t (1 : Fin 3) * 1024 + 1024; rw [e1]; omega
    | ⟨2, _⟩ => show win0_2.index t (2 : Fin 3) * 1024 ≤ (i 2).val ∧ (i 2).val < win0_2.index t (2 : Fin 3) * 1024 + 1024; rw [e2]; omega

/-! ## The reshapes before and after the call -/

/-- The first input stack as the call finds it: the first argument reshaped. -/
theorem V_v0 (c : Dev nD) : (V m c main_v0 : S16x1024x1024.Idx → EReal)
    = shapeCast S16x1024x1024 (m ((c : Thread nD τ).loc main_arg0)) Facts₀.shapeCasts_S16x1x1024x1024_S16x1024x1024 := by
  show StableHlo.after hostOps0 (fun b => m (c, b)) (Proc.devRef .tc main_v0) = _
  after_results
  rfl

/-- The second input stack: the second argument reshaped. -/
theorem V_v1 (c : Dev nD) : (V m c main_v1 : S16x1024x1024.Idx → EReal)
    = shapeCast S16x1024x1024 (m ((c : Thread nD τ).loc main_arg1)) Facts₀.shapeCasts_S16x1x1024x1024_S16x1024x1024 := by
  show StableHlo.after hostOps0 (fun b => m (c, b)) (Proc.devRef .tc main_v1) = _
  after_results
  rfl

/-- The program's result: the output array reshaped. -/
theorem tail_eq (c : Dev nD) :
    (Pipeline.afterTail₀ cfgs (dats m) 0 (V0 m) [hostOps1] c main_v3 : S16x1x1024x1024.Idx → EReal)
      = shapeCast S16x1x1024x1024 ((dats m 0 c).arrAt 2 cfg0.N) Facts₀.shapeCasts_S16x1024x1024_S16x1x1024x1024 := by
  unfold Pipeline.afterTail₀
  show StableHlo.after hostOps1 _ (Proc.devRef .tc main_v3) = _
  after_results
  exact congrArg (fun A => shapeCast S16x1x1024x1024 A Facts₀.shapeCasts_S16x1024x1024_S16x1x1024x1024)
    (Pipeline.withArrays_arr spec0 launch0.win.arr_inj c _ _ 2)

/-- Dropping the unit channel axis keeps the row-major position: entry `(b, h, w)` is entry `(b, 0, h, w)`. -/
theorem drop_apply (x : S16x1x1024x1024.Idx → EReal) (hs : S16x1x1024x1024.ShapeCasts S16x1024x1024)
    (b : Fin 16) (h w : Fin 1024) :
    shapeCast S16x1024x1024 x hs (ix3 b h w) = x (ix4 b (0 : Fin 1) h w) :=
  shapeCast_apply x hs _ _ (by
    rw [Shape.rowMajor_val_four, Shape.rowMajor_val_three]
    show ((b.val * 1 + 0) * 1024 + h.val) * 1024 + w.val = (b.val * 1024 + h.val) * 1024 + w.val
    omega)

/-- Putting it back does too: entry `(b, z, h, w)` is entry `(b, h, w)`. -/
theorem lift_apply (x : S16x1024x1024.Idx → EReal) (hs : S16x1024x1024.ShapeCasts S16x1x1024x1024)
    (b : Fin 16) (z : Fin 1) (h w : Fin 1024) :
    shapeCast S16x1x1024x1024 x hs (ix4 b z h w) = x (ix3 b h w) :=
  shapeCast_apply x hs _ _ (by
    rw [Shape.rowMajor_val_four, Shape.rowMajor_val_three]
    show (b.val * 1024 + h.val) * 1024 + w.val = ((b.val * 1 + z.val) * 1024 + h.val) * 1024 + w.val
    have := z.isLt
    omega)

/-- The program's result is the divergence of the flux of its two arguments. -/
theorem result_eq (c : Dev nD) :
    (Pipeline.afterTail₀ cfgs (dats m) 0 (V0 m) [hostOps1] c main_v3 : S16x1x1024x1024.Idx → EReal)
      = divGrad half (m ((c : Thread nD τ).loc main_arg0)) (m ((c : Thread nD τ).loc main_arg1)) := by
  rw [tail_eq, final, V_v0, V_v1]
  funext i
  obtain ⟨b, z, h, w, rfl⟩ : ∃ (b : Fin 16) (z : Fin 1) (h w : Fin 1024), i = ix4 b z h w :=
    ⟨i 0, i 1, i 2, i 3, eq_ix4 i⟩
  obtain rfl : z = 0 := Subsingleton.elim _ _
  rw [lift_apply, divGrad3_ix3, divGrad_ix4]
  unfold fluxH3 fluxW3 fluxH fluxW
  simp only [drop_apply (m ((c : Thread nD τ).loc main_arg0)), drop_apply (m ((c : Thread nD τ).loc main_arg1))]

/-! ## The run, read -/

/-- Every weakly fair execution of the program terminates with its result at the divergence of the flux of the
    arguments and the arguments unchanged. -/
theorem run : θ_run defs (onTc (τ := τ) (main (F := Ideal))) ⟨m, fun _ => 0, ρ⟩ fun r => ∀ c : Dev nD,
      r.2.mem ((c.tc : Thread nD τ).loc main_v3)
        = divGrad half (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.ArrayValue

end
-- ==== Proof.RefValue.lean ====
/-
  The reference's result, read at an index.

  The reference computes, for each of the two spatial axes in turn, the flux `½·(M↑ + M)·(μ↑ − μ)` with the forward
  neighbours taken by a circular shift (written as two slices joined), adds it to a running result that starts at
  zero, and subtracts the flux shifted one step back. Read at `(b, z, h, w)` each shift reads its operand one step
  forward or back around the axis, so the result is `(((0 + f) − f↓) + g) − g←` of the two fluxes there — the
  divergence of the flux, by the re-association of the sum of four terms.
-/
import proofs.«118862_j65661460021676_2_alg».proof.Proof.Gen.ReferenceIdeal.Read
import proofs.«118862_j65661460021676_2_alg».proof.Proof.Rolls
import Idealize.ShloMosaic.PureOps.Ideal.Laws

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.Read Cert.DivGrad

/-- An argument or result array at the extended reals. -/
abbrev Arr : Type := (⟨S16x1x1024x1024, .f32⟩ : BufTy).Contents (Elt Ideal)

variable (x0 x1 : Arr) (b : Fin 16) (z : Fin 1) (h w : Fin 1024)

/-- `μ` shifted one step forward along the rows' axis. -/
theorem v1_apply : val_main_v1 (F := Ideal) x1 (ix4 b z h w) = x1 (ix4 b z (nxt h) w) := by
  unfold val_main_v1 val_main_call0_v0 val_main_call0_v1
  exact roll_fwd_ax2 x1 _ _ _ b z h w

/-- `M` shifted one step forward along the rows' axis. -/
theorem v2_apply : val_main_v2 (F := Ideal) x0 (ix4 b z h w) = x0 (ix4 b z (nxt h) w) := by
  unfold val_main_v2 val_main_call1_v0 val_main_call1_v1
  exact roll_fwd_ax2 x0 _ _ _ b z h w

/-- The flux along the rows' axis. -/
theorem v7_apply : val_main_v7 (F := Ideal) x0 x1 (ix4 b z h w) = fluxH half x0 x1 b z h w := by
  rw [val_main_v7_apply, val_main_v5_apply, val_main_v6_apply, val_main_v3_apply, val_main_v4_apply,
    val_main_cst_0_apply, v1_apply, v2_apply]
  rfl

/-- That flux shifted one step back along the rows' axis. -/
theorem v9_apply : val_main_v9 (F := Ideal) x0 x1 (ix4 b z h w) = val_main_v7 (F := Ideal) x0 x1 (ix4 b z (prv h) w) := by
  unfold val_main_v9 val_main_call2_v0 val_main_call2_v1
  exact roll_back_ax2 (val_main_v7 (F := Ideal) x0 x1) _ _ _ b z h w

/-- `μ` shifted one step forward along the columns' axis. -/
theorem v11_apply : val_main_v11 (F := Ideal) x1 (ix4 b z h w) = x1 (ix4 b z h (nxt w)) := by
  unfold val_main_v11 val_main_call3_v0 val_main_call3_v1
  exact roll_fwd_ax3 x1 _ _ _ b z h w

/-- `M` shifted one step forward along the columns' axis. -/
theorem v12_apply : val_main_v12 (F := Ideal) x0 (ix4 b z h w) = x0 (ix4 b z h (nxt w)) := by
  unfold val_main_v12 val_main_call4_v0 val_main_call4_v1
  exact roll_fwd_ax3 x0 _ _ _ b z h w

/-- The flux along the columns' axis. -/
theorem v17_apply : val_main_v17 (F := Ideal) x0 x1 (ix4 b z h w) = fluxW half x0 x1 b z h w := by
  rw [val_main_v17_apply, val_main_v15_apply, val_main_v16_apply, val_main_v13_apply, val_main_v14_apply,
    val_main_cst_1_apply, v11_apply, v12_apply]
  rfl

/-- That flux shifted one step back along the columns' axis. -/
theorem v19_apply : val_main_v19 (F := Ideal) x0 x1 (ix4 b z h w) = val_main_v17 (F := Ideal) x0 x1 (ix4 b z h (prv w)) := by
  unfold val_main_v19 val_main_call5_v0 val_main_call5_v1
  exact roll_back_ax3 (val_main_v17 (F := Ideal) x0 x1) _ _ _ b z h w

/-- The reference's result is the divergence of the flux of its two arguments. -/
theorem result_eq : val_main_v20 (F := Ideal) x0 x1 = divGrad half x0 x1 := by
  funext i
  obtain ⟨b, z, h, w, rfl⟩ : ∃ (b : Fin 16) (z : Fin 1) (h w : Fin 1024), i = ix4 b z h w :=
    ⟨i 0, i 1, i 2, i 3, eq_ix4 i⟩
  rw [val_main_v20_apply, val_main_v18_apply, val_main_v10_apply, val_main_v8_apply, val_main_v0_apply,
    val_main_cst_apply, v19_apply, v9_apply, v7_apply, v7_apply, v17_apply, v17_apply]
  simp only [Ideal.ofBits_def, Ideal.addf_def, Ideal.subf_def, Ideal.ofBits_zero_f32]
  exact sum_forms _ _ _ _

end Cert.ReferenceIdeal.RefValue

end
-- ==== Proof.lean ====
/-
  The kernel computes, on sixteen periodic 1024 × 1024 images, the divergence of the flux
  `½·(M↑ + M)·(μ↑ − μ)`: along each of the two axes the flux at a position minus the flux one step back, the two axes
  added. It does so one image per grid point, shifting by rotations of the block; the reference does it on the whole
  batch, shifting by slices joined end to end, and accumulates the four terms one after another from zero.

  Read at an index both results are the same four flux values combined as `(f − f↓) + (g − g←)` on one side and
  `(((0 + f) − f↓) + g) − g←` on the other. On the extended reals a difference is the sum with the negation, so the
  two are one sum of four terms re-associated: the equality holds at every extended real, and the proof never opens
  the finiteness precondition.

  The modules: `Stencil` (the flux, the divergence, the re-association), `Rolls` (each spelling of the shift read at
  an index), `BlockValue` (what one grid point leaves in its block), `ArrayValue` (the blocks tile the output; the
  reshapes around the call), `RefValue` (the reference's result at an index).
-/
import proofs.«118862_j65661460021676_2_alg».proof.Defs
import proofs.«118862_j65661460021676_2_alg».proof.Proof.Gen.Kernel
import proofs.«118862_j65661460021676_2_alg».proof.Proof.Gen.Kernel.Skeleton
import proofs.«118862_j65661460021676_2_alg».proof.Proof.Gen.Kernel.Launch
import proofs.«118862_j65661460021676_2_alg».proof.Proof.Gen.Kernel.Points
import proofs.«118862_j65661460021676_2_alg».proof.Proof.Gen.Kernel.Frame
import proofs.«118862_j65661460021676_2_alg».proof.Proof.Gen.KernelIdeal
import proofs.«118862_j65661460021676_2_alg».proof.Proof.Gen.KernelIdeal.Skeleton
import proofs.«118862_j65661460021676_2_alg».proof.Proof.Gen.KernelIdeal.Launch
import proofs.«118862_j65661460021676_2_alg».proof.Proof.Gen.KernelIdeal.Points
import proofs.«118862_j65661460021676_2_alg».proof.Proof.Gen.KernelIdeal.Frame
import proofs.«118862_j65661460021676_2_alg».proof.Proof.Gen.ReferenceIdeal
import proofs.«118862_j65661460021676_2_alg».proof.Proof.Gen.ReferenceIdeal.Run
import proofs.«118862_j65661460021676_2_alg».proof.Proof.Gen.ReferenceIdeal.Read
import proofs.«118862_j65661460021676_2_alg».proof.Proof.Gen.Pre_finite_inputs
import proofs.«118862_j65661460021676_2_alg».proof.Proof.ArrayValue
import proofs.«118862_j65661460021676_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel :=
  fun m ρ _ => Cert.Kernel.Gen.frame m ρ

/-- So does the kernel read at the extended reals. -/
theorem frame_ki : Cert.frame_KernelIdeal :=
  fun m ρ _ => Cert.KernelIdeal.Gen.frame m ρ

/-- And the reference: its run, with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- From arguments that agree, both programs end at the divergence of the flux of the arguments. -/
theorem algebraic : Cert.algebraic_KernelIdeal_ReferenceIdeal := by
  intro m ρ m' ρ' _ hagree
  refine ⟨fun c => Cert.DivGrad.divGrad Cert.DivGrad.half
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
